-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S2000000x1 : Shape := ⟨2, ![2000000, 1]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S4096 : S_.BroadcastsInDim S4096 (![] : Fin 0 → Fin S4096.rank)
  reducesTo_S4096_S_d0 : S4096.ReducesTo [0] S_
  slices_S2000000x2_S2000000x1_0_0 : S2000000x2.Slices ![0, 0] S2000000x1
  shapeCasts_S2000000x1_S2000000 : S2000000x1.ShapeCasts S2000000

variable [Facts]

def fn_part1 {F : FTy → Type} [FloatOps F] (main_v13 : IVec S_ 1) (main_v15 : IVec S2000000 32) (main_v16 : IVec S2000000 32) : IVec S_ 1 :=
  let main_v17 : IVec S2000000 1 := cmpi .sge main_v15 main_v16
  let main_c_5 : IVec S_ 1 := constantI S_ 1 1#1
  let main_v18 : IVec S_ 1 := (fun x v => Host.reduce IntOp.andi x v reducesTo_S2000000_S_d0 h_S_) main_v17 main_c_5
  let main_v19 : IVec S_ 1 := andi main_v13 main_v18
  main_v19

def fn {F : FTy → Type} [FloatOps F] (main_arg0 : FVec F S2048x20000 .f32) (main_arg1 : FVec F S2000000 .f32) (main_arg2 : FVec F S4096 .f32) (main_arg3 : IVec S2000000x2 32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : IVec S2000000x1 32 := (extractStridedSlice S2000000x1 ![0, 0] · slices_S2000000x2_S2000000x1_0_0) main_arg3
  let main_v15 : IVec S2000000 32 := shapeCast S2000000 main_v14 shapeCasts_S2000000x1_S2000000
  let main_c_4 : IVec S_ 32 := constantI S_ 32 0#32
  let main_v16 : IVec S2000000 32 := broadcastInDim S2000000 ![] bcast_S_S2000000 main_c_4
  fn_part1 (F := F) main_v13 main_v15 main_v16
-- ==== Kernel.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S2000000x1 : Shape := ⟨2, ![2000000, 1]⟩
abbrev S_ : Shape := ⟨0, ![]⟩
abbrev S20480x4096 : Shape := ⟨2, ![20480, 4096]⟩
abbrev S2048x20480 : Shape := ⟨2, ![2048, 20480]⟩
abbrev S1x4096 : Shape := ⟨2, ![1, 4096]⟩
abbrev S2048x4096 : Shape := ⟨2, ![2048, 4096]⟩
abbrev S1024x1024 : Shape := ⟨2, ![1024, 1024]⟩
abbrev S1x1024 : Shape := ⟨2, ![1, 1024]⟩

abbrev nBuf : Space → Nat
  | .hbm => 35
  | .vmem => 8
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S2000000x1, .i32⟩
  | .hbm, ⟨5, _⟩ => ⟨S2000000, .i32⟩
  | .hbm, ⟨6, _⟩ => ⟨S2000000x1, .i32⟩
  | .hbm, ⟨7, _⟩ => ⟨S2000000, .i32⟩
  | .hbm, ⟨8, _⟩ => ⟨S_, .f32⟩
  | .hbm, ⟨9, _⟩ => ⟨S20480x4096, .f32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20480x4096, .f32⟩
  | .hbm, ⟨28, _⟩ => ⟨S20480x4096, .bf16⟩
  | .hbm, ⟨29, _⟩ => ⟨S2048x20000, .bf16⟩
  | .hbm, ⟨30, _⟩ => ⟨S_, .i32⟩
  | .hbm, ⟨31, _⟩ => ⟨S_, .bf16⟩
  | .hbm, ⟨32, _⟩ => ⟨S2048x20480, .bf16⟩
  | .hbm, ⟨33, _⟩ => ⟨S1x4096, .f32⟩
  | .hbm, ⟨34, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 20], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S20480x4096 : S_.BroadcastsInDim S20480x4096 (![] : Fin 0 → Fin S20480x4096.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bitsLt_bf16_f32 : FTy.bits .bf16 < FTy.bits .f32
  pads_S2048x20000_S2048x20480_000_04800 : S2048x20000.Pads (![0, 0] : Fin 2 → Nat) ![0, 480] ![0, 0] S2048x20480
  h_S_ : 0 < S_.numel
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S20480x4096_S2000000x2_S2000000_n_01_01_1_wf : ScatterDims.WF S20480x4096 S2000000x2 S2000000 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x20480.size a
  hwx0_0 : ∀ i : grid0.Coords, EltTy.bits .bf16 = 32 ∨ (Rect.block (s := S2048x20480) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S20480x4096.size a
  hwx0_1 : ∀ i : grid0.Coords, EltTy.bits .bf16 = 32 ∨ (Rect.block (s := S20480x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .f32 = 32 ∨ (Rect.block (s := S2048x4096) S1024x1024.size (cc0_transform_3 i) (hinb0_3 i)).WholeWords (EltTy.packing .f32)

variable [Facts₀]

def scatter_S20480x4096_S2000000x2_S2000000_n_01_01_1 : ScatterDims S20480x4096 S2000000x2 S2000000 where
  updateWindowDims := []
  insertedWindowDims := [0, 1]
  scatterDimsToOperandDims := [0, 1]
  indexVectorDim := 1
  wf := scatter_S20480x4096_S2000000x2_S2000000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v21) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x20000 : Shape := ⟨2, ![2048, 20000]⟩
abbrev S2000000 : Shape := ⟨1, ![2000000]⟩
abbrev S4096 : Shape := ⟨1, ![4096]⟩
abbrev S2000000x2 : Shape := ⟨2, ![2000000, 2]⟩
abbrev S_ : Shape := ⟨0, ![]⟩
abbrev S20000x4096 : Shape := ⟨2, ![20000, 4096]⟩
abbrev S2000000x1 : Shape := ⟨2, ![2000000, 1]⟩
abbrev S2048x4096 : Shape := ⟨2, ![2048, 4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2048x20000, .f32⟩
  | .hbm, ⟨1, _⟩ => ⟨S2000000, .f32⟩
  | .hbm, ⟨2, _⟩ => ⟨S4096, .f32⟩
  | .hbm, ⟨3, _⟩ => ⟨S2000000x2, .i32⟩
  | .hbm, ⟨4, _⟩ => ⟨S_, .f32⟩
  | .hbm, ⟨5, _⟩ => ⟨S20000x4096, .f32⟩
  | .hbm, ⟨6, _⟩ => ⟨S2000000x1, .i32⟩
  | .hbm, ⟨7, _⟩ => ⟨S2000000, .i32⟩
  | .hbm, ⟨8, _⟩ => ⟨S2000000x1, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x1, .i32⟩
  | .hbm, ⟨26, _⟩ => ⟨S2000000x2, .i32⟩
  | .hbm, ⟨27, _⟩ => ⟨S20000x4096, .f32⟩
  | .hbm, ⟨28, _⟩ => ⟨S2048x4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S2048x4096, .f32⟩
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S20000x4096 : S_.BroadcastsInDim S20000x4096 (![] : Fin 0 → Fin S20000x4096.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  scatter_S20000x4096_S2000000x2_S2000000_n_01_01_1_wf : ScatterDims.WF S20000x4096 S2000000x2 S2000000 [] [0, 1] [0, 1] 1
  dot_S2048x20000_S20000x4096_S2048x4096_1_0_0_1_n_n_wf : DotDims.WF S2048x20000 S20000x4096 S2048x4096 [1] [0] [0] [1] [] []

variable [Facts₀]

def scatter_S20000x4096_S2000000x2_S2000000_n_01_01_1 : ScatterDims S20000x4096 S2000000x2 S2000000 where
  updateWindowDims := []
  insertedWindowDims := [0, 1]
  scatterDimsToOperandDims := [0, 1]
  indexVectorDim := 1
  wf := scatter_S20000x4096_S2000000x2_S2000000_n_01_01_1_wf
def dot_S2048x20000_S20000x4096_S2048x4096_1_0_0_1_n_n : DotDims S2048x20000 S20000x4096 S2048x4096 where
  lhsContracting := [1]
  rhsContracting := [0]
  lhsNonContracting := [0]
  rhsNonContracting := [1]
  lhsBatch := []
  rhsBatch := []
  wf := dot_S2048x20000_S20000x4096_S2048x4096_1_0_0_1_n_n_wf

class Facts : Prop extends Facts₀ where

variable [Facts]
-- ==== Proof.LibIndexPairs.lean ====
/-
  The index pairs a sparse matrix is built from, as both programs prepare them for the scatter: the `n × 2`
  integer array is cut into its row column and its column column, each entry below zero has the axis length
  added (Python's wrap-around of negative indices), and the two columns are laid side by side again.
  Read entry by entry; and when every row index is non-negative the row length that would have been added
  does not matter.
-/
import Idealize.ShloMosaic.Lib.Pipeline.Value
import Idealize.ShloMosaic.Lib.ValueIdx
import Idealize.ShloMosaic.Lib.ValueLayout
import Idealize.ShloMosaic.Lib.Affine

noncomputable section

namespace Idealize.ShloMosaic.IndexPairs

open Idealize.ShloMosaic Idealize.ShloMosaic.ValueIdx

variable (n : ℕ)
  (hsl0 : (⟨2, ![n, 2]⟩ : Shape).Slices ![0, 0] ⟨2, ![n, 1]⟩)
  (hsl1 : (⟨2, ![n, 2]⟩ : Shape).Slices ![0, 1] ⟨2, ![n, 1]⟩)
  (hsc : (⟨2, ![n, 1]⟩ : Shape).ShapeCasts ⟨1, ![n]⟩)
  (hb0 : (⟨0, ![]⟩ : Shape).BroadcastsInDim ⟨1, ![n]⟩ (![] : Fin 0 → Fin 1))
  (hb1 : (⟨1, ![n]⟩ : Shape).BroadcastsInDim ⟨2, ![n, 1]⟩ (![0] : Fin 1 → Fin 2))
  (hcat : Shape.Concatenates [(⟨2, ![n, 1]⟩ : Shape), ⟨2, ![n, 1]⟩] ⟨2, ![n, 2]⟩ 1)

/-- The row indices: column 0 of the pairs, as a vector. -/
def rows (x : IVec ⟨2, ![n, 2]⟩ 32) : IVec ⟨1, ![n]⟩ 32 :=
  shapeCast ⟨1, ![n]⟩ (extractStridedSlice ⟨2, ![n, 1]⟩ ![0, 0] x hsl0) hsc

/-- The column indices: column 1 of the pairs, as a vector. -/
def cols (x : IVec ⟨2, ![n, 2]⟩ 32) : IVec ⟨1, ![n]⟩ 32 :=
  shapeCast ⟨1, ![n]⟩ (extractStridedSlice ⟨2, ![n, 1]⟩ ![0, 1] x hsl1) hsc

theorem rows_apply (x : IVec ⟨2, ![n, 2]⟩ 32) (j : Fin n) : rows n hsl0 hsc x (ix1 j) = x (ix2 j (0 : Fin 2)) := by
  unfold rows
  rw [shapeCast_apply _ hsc (ix1 j) (ix2 j (0 : Fin 1)) (by
    rw [Shape.rowMajor_val_two, Shape.rowMajor_val_one]; show j.val * 1 + 0 = j.val; omega)]
  exact extractStridedSlice_apply ![0, 0] x hsl0 (ix2 j (0 : Fin 1)) (ix2 j (0 : Fin 2)) (fun a => match a with
    | ⟨0, _⟩ => by show j.val = 0 + j.val; omega
    | ⟨1, _⟩ => by show 0 = 0 + 0; omega)

theorem cols_apply (x : IVec ⟨2, ![n, 2]⟩ 32) (j : Fin n) : cols n hsl1 hsc x (ix1 j) = x (ix2 j (1 : Fin 2)) := by
  unfold cols
  rw [shapeCast_apply _ hsc (ix1 j) (ix2 j (0 : Fin 1)) (by
    rw [Shape.rowMajor_val_two, Shape.rowMajor_val_one]; show j.val * 1 + 0 = j.val; omega)]
  exact extractStridedSlice_apply ![0, 1] x hsl1 (ix2 j (0 : Fin 1)) (ix2 j (1 : Fin 2)) (fun a => match a with
    | ⟨0, _⟩ => by show j.val = 0 + j.val; omega
    | ⟨1, _⟩ => by show 1 = 1 + 0; omega)

/-- An index vector with the axis length `N` added to its negative entries. -/
def wrap (N : BitVec 32) (r : IVec ⟨1, ![n]⟩ 32) : IVec ⟨1, ![n]⟩ 32 :=
  select (cmpi .slt r (broadcastInDim ⟨1, ![n]⟩ ![] hb0 (constantI ⟨0, ![]⟩ 32 0#32)))
    (addi r (broadcastInDim ⟨1, ![n]⟩ ![] hb0 (constantI ⟨0, ![]⟩ 32 N))) r

theorem wrap_apply (N : BitVec 32) (r : IVec ⟨1, ![n]⟩ 32) (i : (⟨1, ![n]⟩ : Shape).Idx) :
    wrap n hb0 N r i = Scalar.select (IntOp.cmpi .slt (r i) 0#32) (IntOp.addi (r i) N) (r i) := by
  have e : ∀ b : BitVec 32, broadcastInDim ⟨1, ![n]⟩ ![] hb0 (constantI ⟨0, ![]⟩ 32 b) i = b := fun b =>
    broadcastInDim_apply _ hb0 _ i ix0 (fun a => a.elim0)
  show Scalar.select (IntOp.cmpi .slt (r i) (broadcastInDim ⟨1, ![n]⟩ ![] hb0 (constantI ⟨0, ![]⟩ 32 0#32) i))
    (IntOp.addi (r i) (broadcastInDim ⟨1, ![n]⟩ ![] hb0 (constantI ⟨0, ![]⟩ 32 N) i)) (r i) = _
  rw [e, e]

/-- A non-negative entry is left as it is, whatever the axis length. -/
theorem wrap_of_nonneg (N : BitVec 32) (r : IVec ⟨1, ![n]⟩ 32) (i : (⟨1, ![n]⟩ : Shape).Idx) (h : 0 ≤ (r i).toInt) :
    wrap n hb0 N r i = r i := by
  rw [wrap_apply]
  have hne : ¬IntOp.cmpi .slt (r i) 0#32 = 1#1 := fun hh => by
    have := IntOp.cmpi_slt.1 hh
    rw [BitVec.toInt_zero] at this
    omega
  exact if_neg hne

/-- The pairs as the scatter takes them: rows wrapped by `N`, columns wrapped by `M`, side by side. -/
def pairs (N M : BitVec 32) (x : IVec ⟨2, ![n, 2]⟩ 32) : IVec ⟨2, ![n, 2]⟩ 32 :=
  concatenate ⟨2, ![n, 2]⟩ 1
    [⟨⟨2, ![n, 1]⟩, broadcastInDim ⟨2, ![n, 1]⟩ ![0] hb1 (wrap n hb0 N (rows n hsl0 hsc x))⟩,
     ⟨⟨2, ![n, 1]⟩, broadcastInDim ⟨2, ![n, 1]⟩ ![0] hb1 (wrap n hb0 M (cols n hsl1 hsc x))⟩] hcat

theorem column_apply (v : IVec ⟨1, ![n]⟩ 32) (j : Fin n) :
    broadcastInDim ⟨2, ![n, 1]⟩ ![0] hb1 v (ix2 j (0 : Fin 1)) = v (ix1 j) :=
  broadcastInDim_apply ![0] hb1 v (ix2 j (0 : Fin 1)) (ix1 j) (fun a => match a with
    | ⟨0, _⟩ => by
      show j.val = if n = 1 then 0 else j.val
      split
      · have := j.isLt; omega
      · rfl)

theorem pairs_apply_row (N M : BitVec 32) (x : IVec ⟨2, ![n, 2]⟩ 32) (j : Fin n) :
    pairs n hsl0 hsl1 hsc hb0 hb1 hcat N M x (ix2 j (0 : Fin 2)) = wrap n hb0 N (rows n hsl0 hsc x) (ix1 j) := by
  unfold pairs
  rw [concatenate_pair_apply_left (s₁ := ⟨2, ![n, 1]⟩) (s₂ := ⟨2, ![n, 1]⟩) (1 : Fin 2) _ _ hcat (ix2 j (0 : Fin 2)) rfl (ix2 j (0 : Fin 1)) (fun b => match b with
    | ⟨0, _⟩ => rfl
    | ⟨1, _⟩ => rfl)]
  exact column_apply n hb1 _ j

theorem pairs_apply_col (N M : BitVec 32) (x : IVec ⟨2, ![n, 2]⟩ 32) (j : Fin n) :
    pairs n hsl0 hsl1 hsc hb0 hb1 hcat N M x (ix2 j (1 : Fin 2)) = wrap n hb0 M (cols n hsl1 hsc x) (ix1 j) := by
  unfold pairs
  rw [concatenate_pair_apply_right (s₁ := ⟨2, ![n, 1]⟩) (s₂ := ⟨2, ![n, 1]⟩) (1 : Fin 2) _ _ hcat (ix2 j (1 : Fin 2)) rfl rfl (ix2 j (0 : Fin 1)) (fun b hb => match b, hb with
    | ⟨0, _⟩, _ => rfl
    | ⟨1, _⟩, hb => absurd rfl hb) rfl]
  exact column_apply n hb1 _ j

/-- With every row index non-negative, the pairs do not depend on the row length used for wrapping. -/
theorem pairs_eq_of_rows_nonneg (N N' M : BitVec 32) (x : IVec ⟨2, ![n, 2]⟩ 32)
    (h : ∀ j : Fin n, 0 ≤ (x (ix2 j (0 : Fin 2))).toInt) :
    pairs n hsl0 hsl1 hsc hb0 hb1 hcat N M x = pairs n hsl0 hsl1 hsc hb0 hb1 hcat N' M x := by
  funext i
  obtain ⟨j, b, rfl⟩ : ∃ (j : Fin n) (b : Fin 2), i = ix2 j b := ⟨i 0, i 1, eq_ix2 i⟩
  match b with
  | ⟨0, _⟩ =>
    show pairs n hsl0 hsl1 hsc hb0 hb1 hcat N M x (ix2 j (0 : Fin 2)) = pairs n hsl0 hsl1 hsc hb0 hb1 hcat N' M x (ix2 j (0 : Fin 2))
    have hr : 0 ≤ (rows n hsl0 hsc x (ix1 j)).toInt := by rw [rows_apply]; exact h j
    rw [pairs_apply_row, pairs_apply_row, wrap_of_nonneg n hb0 N _ _ hr, wrap_of_nonneg n hb0 N' _ _ hr]
  | ⟨1, _⟩ =>
    show pairs n hsl0 hsl1 hsc hb0 hb1 hcat N M x (ix2 j (1 : Fin 2)) = pairs n hsl0 hsl1 hsc hb0 hb1 hcat N' M x (ix2 j (1 : Fin 2))
    rw [pairs_apply_col, pairs_apply_col]

end Idealize.ShloMosaic.IndexPairs

end
-- ==== Proof.Entry.lean ====
/-
  What the kernel's launch finds in its three input arrays, as functions of the program's arguments on the
  extended reals: the x array is the argument x with 480 zero columns appended (its change of float format is
  the identity); the weight array is the scatter-add of the value vector into the 20480 × 4096 zero matrix at
  the wrapped index pairs; the bias array is the bias vector as one row.
-/
import proofs.«149271_j84181359001849_2_alg».proof.Proof.Gen.KernelIdeal.Frame
import proofs.«149271_j84181359001849_2_alg».proof.Proof.LibIndexPairs
import Idealize.ShloMosaic.Lib.StableHlo.Run
import Idealize.ShloMosaic.Lib.KernelVsHost
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Idealize.ShloMosaic.IndexPairs

variable (m : (ℓ : Loc nD τ sig) → Buf (Elt Ideal) ℓ)

/-- The x array at launch: the argument, format changed, padded on the right by the converted integer 0. -/
theorem x_array (c : Dev nD) :
    (V m c main_v21 : S2048x20480.Idx → EReal)
      = pad S2048x20480 ![0, 0] ![0, 480] ![0, 0]
          (truncf (F := Ideal) .bf16 (m ((c : Thread nD τ).loc main_arg0)) bitsLt_bf16_f32)
          (sitofp (F := Ideal) .bf16 (constantI S_ 32 0#32)) pads_S2048x20000_S2048x20480_000_04800 h_S_ := by
  dsimp only [Gen.V]
  simp only [Gen.hostOps0, Gen.hostOps0_1, Gen.hostOps0_2, List.flatten_cons, List.flatten_nil, List.append_nil,
    List.cons_append, List.nil_append]
  after_results
  rfl

/-- The bias array at launch: the bias vector recast as one row. -/
theorem bias_array (c : Dev nD) :
    (V m c main_v22 : S1x4096.Idx → EReal)
      = shapeCast S1x4096 (m ((c : Thread nD τ).loc main_arg2)) shapeCasts_S4096_S1x4096 := by
  dsimp only [Gen.V]
  simp only [Gen.hostOps0, Gen.hostOps0_1, Gen.hostOps0_2, List.flatten_cons, List.flatten_nil, List.append_nil,
    List.cons_append, List.nil_append]
  after_results
  rfl

set_option maxHeartbeats 4000000 in
/-- The weight array at launch: the scatter-add into the zero matrix, format changed. -/
theorem weight_array (c : Dev nD) :
    (V m c main_v19 : S20480x4096.Idx → EReal)
      = truncf (F := Ideal) .bf16
          (Host.scatterAdd scatter_S20480x4096_S2000000x2_S2000000_n_01_01_1
            (broadcastInDim S20480x4096 ![] bcast_S_S20480x4096 (constant (F := Ideal) S_ .f32 0x00000000#32))
            (pairs 2000000 slices_S2000000x2_S2000000x1_0_0 slices_S2000000x2_S2000000x1_0_1 shapeCasts_S2000000x1_S2000000
              bcast_S_S2000000 bcast_S2000000_S2000000x1_0 concatenates_S2000000x1_S2000000x1_S2000000x2_d1 20480#32 4096#32
              (m ((c : Thread nD τ).loc main_arg3)))
            (m ((c : Thread nD τ).loc main_arg1))) bitsLt_bf16_f32 := by
  dsimp only [Gen.V]
  simp only [Gen.hostOps0, Gen.hostOps0_1, Gen.hostOps0_2, List.flatten_cons, List.flatten_nil, List.append_nil,
    List.cons_append, List.nil_append]
  after_results
  rfl

end Cert.KernelIdeal.Entry

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.Payloads.lean ====
/-
  The three values the kernel body stores, read at an entry `(p, q)` of the 1024 × 1024 output tile, on the
  extended reals: the reset value is 0; the accumulating value is the tile's previous entry plus the inner
  product of row `p` of the x tile with column `q` of the weight tile; the closing value is the hyperbolic
  tangent of the accumulated entry plus entry `q` of the bias row.
-/
import proofs.«149271_j84181359001849_2_alg».proof.Proof.Gen.KernelIdeal.Skeleton
import proofs.«149271_j84181359001849_2_alg».proof.Proof.LibMatmul
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The reset value: every entry is 0. -/
theorem reset_apply (y : S1024x1024.Idx) : k0_pay1 (F := Ideal) y = 0 := by
  show Ideal.ofBits .f32 0x00000000#32 = 0
  exact Ideal.ofBits_zero_f32

/-- The accumulating value: the previous entry plus row `p` of the x tile times column `q` of the weight tile. -/
theorem accumulate_apply (acc : Vec Ideal S1024x1024 .f32) (a b : Vec Ideal S1024x1024 .bf16) (p q : Fin 1024) :
    k0_pay2 (F := Ideal) acc a b (ix2 p q) = acc (ix2 p q) + ∑ kk : Fin 1024, a (ix2 p kk) * b (ix2 kk q) := by
  unfold k0_pay2
  simp only [shapeCast_self]
  exact congrArg (acc (ix2 p q) + ·) (matmul_plain_zero_apply 1024 1024 1024 none a b p q)

/-- The closing value: tanh of the accumulated entry plus the bias row's entry `q`. -/
theorem close_apply (bias : Vec Ideal S1x1024 .f32) (acc : Vec Ideal S1024x1024 .f32) (p q : Fin 1024) :
    k0_pay3 (F := Ideal) bias acc (ix2 p q) = Ideal.tanh (acc (ix2 p q) + bias (ix2 (0 : Fin 1) q)) := by
  unfold k0_pay3
  simp only [shapeCast_self]
  exact congrArg (fun z => Ideal.tanh (acc (ix2 p q) + z)) (broadcastTo_1b_ab_apply bias _ p q)

end Cert.KernelIdeal.Tile

end
-- ==== Proof.Blocks.lean ====
/-
  The input tiles a grid point works on, read off the arrays the launch finds.  Grid point `t` of the
  2 × 4 × 20 grid (row-major) has row-tile `t / 80`, column-tile `t / 20 % 4` and inner tile `t % 20`: its x
  tile is rows `1024·(t/80) …` and columns `1024·(t%20) …` of the x array, its weight tile rows
  `1024·(t%20) …` and columns `1024·(t/20%4) …` of the weight array, its bias tile columns
  `1024·(t/20%4) …` of the one bias row.
-/
import proofs.«149271_j84181359001849_2_alg».proof.Proof.Gen.KernelIdeal.Frame
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The x window's tile indices at a grid point. -/
theorem x_index : ∀ t : Fin cfg0.N, win0_0.index t (0 : Fin 2) = t.val / 80 ∧ win0_0.index t (1 : Fin 2) = t.val % 20 :=
  (by decide +kernel : ∀ t : Fin grid0.N, _)

/-- The weight window's tile indices at a grid point. -/
theorem w_index : ∀ t : Fin cfg0.N, win0_1.index t (0 : Fin 2) = t.val % 20 ∧ win0_1.index t (1 : Fin 2) = t.val / 20 % 4 :=
  (by decide +kernel : ∀ t : Fin grid0.N, _)

/-- The bias window's tile indices at a grid point. -/
theorem b_index : ∀ t : Fin cfg0.N, win0_2.index t (0 : Fin 2) = 0 ∧ win0_2.index t (1 : Fin 2) = t.val / 20 % 4 :=
  (by decide +kernel : ∀ t : Fin grid0.N, _)

/-- The x array as the launch finds it (the kernel's first operand). -/
def xArr (c : Dev nD) : S2048x20480.Idx → EReal := V m c (Pipeline.arrRef spec0 0)
/-- The weight array as the launch finds it (the kernel's second operand). -/
def wArr (c : Dev nD) : S20480x4096.Idx → EReal := V m c (Pipeline.arrRef spec0 1)
/-- The bias row as the launch finds it (the kernel's third operand). -/
def bArr (c : Dev nD) : S1x4096.Idx → EReal := V m c (Pipeline.arrRef spec0 2)

/-- A window's tile read off an array: the array at the tile's place in it. -/
theorem read_x (c : Dev nD) (t : Fin cfg0.N) (A : Buf (Elt Ideal) ((c : Thread nD τ).loc (Pipeline.arrRef spec0 0)))
    (y : S1024x1024.Idx) :
    ((cfg0.win 0).blk t).view.read (Elt Ideal) A y = A (((cfg0.win 0).blk t).view.emb y) := rfl
theorem read_w (c : Dev nD) (t : Fin cfg0.N) (A : Buf (Elt Ideal) ((c : Thread nD τ).loc (Pipeline.arrRef spec0 1)))
    (y : S1024x1024.Idx) :
    ((cfg0.win 1).blk t).view.read (Elt Ideal) A y = A (((cfg0.win 1).blk t).view.emb y) := rfl
theorem read_b (c : Dev nD) (t : Fin cfg0.N) (A : Buf (Elt Ideal) ((c : Thread nD τ).loc (Pipeline.arrRef spec0 2)))
    (y : S1x1024.Idx) :
    ((cfg0.win 2).blk t).view.read (Elt Ideal) A y = A (((cfg0.win 2).blk t).view.emb y) := rfl

/-- Entry `(a, b)` of the x tile at point `t` is the x array at row `1024·(t/80) + a`, column `1024·(t%20) + b`. -/
theorem x_tile (c : Dev nD) (t : Fin cfg0.N) (a b : Fin 1024) (i : S2048x20480.Idx)
    (h0 : (i 0).val = 1024 * (t.val / 80) + a.val) (h1 : (i 1).val = 1024 * (t.val % 20) + b.val) :
    iblk m c 0 t (ix2 a b) = xArr m c i := by
  unfold iblk xArr
  generalize V m c (Pipeline.arrRef spec0 0) = A
  obtain ⟨e0, e1⟩ := x_index t
  refine (read_x c t A (ix2 a b)).trans (congrArg A (funext fun ax => Fin.ext ?_))
  match ax with
  | ⟨0, _⟩ => show win0_0.index t (0 : Fin 2) * 1024 + 1 * a.val = (i 0).val; rw [e0, h0]; omega
  | ⟨1, _⟩ => show win0_0.index t (1 : Fin 2) * 1024 + 1 * b.val = (i 1).val; rw [e1, h1]; omega

/-- Entry `(a, b)` of the weight tile at point `t` is the weight array at row `1024·(t%20) + a`, column `1024·(t/20%4) + b`. -/
theorem w_tile (c : Dev nD) (t : Fin cfg0.N) (a b : Fin 1024) (i : S20480x4096.Idx)
    (h0 : (i 0).val = 1024 * (t.val % 20) + a.val) (h1 : (i 1).val = 1024 * (t.val / 20 % 4) + b.val) :
    iblk m c 1 t (ix2 a b) = wArr m c i := by
  unfold iblk wArr
  generalize V m c (Pipeline.arrRef spec0 1) = A
  obtain ⟨e0, e1⟩ := w_index t
  refine (read_w c t A (ix2 a b)).trans (congrArg A (funext fun ax => Fin.ext ?_))
  match ax with
  | ⟨0, _⟩ => show win0_1.index t (0 : Fin 2) * 1024 + 1 * a.val = (i 0).val; rw [e0, h0]; omega
  | ⟨1, _⟩ => show win0_1.index t (1 : Fin 2) * 1024 + 1 * b.val = (i 1).val; rw [e1, h1]; omega

/-- Entry `(0, b)` of the bias tile at point `t` is the bias row at column `1024·(t/20%4) + b`. -/
theorem b_tile (c : Dev nD) (t : Fin cfg0.N) (b : Fin 1024) (i : S1x4096.Idx)
    (h1 : (i 1).val = 1024 * (t.val / 20 % 4) + b.val) :
    iblk m c 2 t (ix2 (0 : Fin 1) b) = bArr m c i := by
  unfold iblk bArr
  generalize V m c (Pipeline.arrRef spec0 2) = A
  obtain ⟨e0, e1⟩ := b_index t
  have hi0 : (i 0).val < 1 := (i 0).isLt
  refine (read_b c t A (ix2 (0 : Fin 1) b)).trans (congrArg A (funext fun ax => Fin.ext ?_))
  match ax with
  | ⟨0, _⟩ => show win0_2.index t (0 : Fin 2) * 1 + 1 * 0 = (i 0).val; rw [e0]; omega
  | ⟨1, _⟩ => show win0_2.index t (1 : Fin 2) * 1024 + 1 * b.val = (i 1).val; rw [e1, h1]; omega

end Cert.KernelIdeal.Tiles

end
-- ==== Proof.LibBlockSum.lean ====
/-
  Sums cut into consecutive blocks.

  A sum of `n * b` terms of a commutative additive monoid, indexed by `Fin (n * b)`, is the sum over the
  `n` consecutive blocks of length `b` of each block's sum: term `p * b + q` is term `q` of block `p`.
  No subtraction and no cancellation is used, so the law holds on the extended reals with their
  infinities as it does on the reals.
-/
import Mathlib.Algebra.BigOperators.Fin
import Mathlib.Logic.Equiv.Fin.Basic

namespace BlockSum

variable {M : Type*} [AddCommMonoid M]

/-- Position `q` of block `p`, as a position among all `n * b` terms. -/
def pos {n b : ℕ} (p : Fin n) (q : Fin b) : Fin (n * b) :=
  ⟨p.val * b + q.val, by
    have hp : p.val + 1 ≤ n := p.isLt
    calc p.val * b + q.val < p.val * b + b := Nat.add_lt_add_left q.isLt _
      _ = (p.val + 1) * b := (Nat.succ_mul _ _).symm
      _ ≤ n * b := Nat.mul_le_mul_right b hp⟩

@[simp] theorem pos_val {n b : ℕ} (p : Fin n) (q : Fin b) : (pos p q).val = p.val * b + q.val := rfl

/-- Every position is position `k % b` of block `k / b`, and of no other. -/
def posEquiv (n b : ℕ) : Fin n × Fin b ≃ Fin (n * b) where
  toFun x := pos x.1 x.2
  invFun k :=
    have hb : 0 < b := Nat.pos_of_ne_zero fun h => by
      have := k.isLt; simp [h] at this
    (⟨k.val / b, Nat.div_lt_of_lt_mul (Nat.mul_comm n b ▸ k.isLt)⟩, ⟨k.val % b, Nat.mod_lt _ hb⟩)
  left_inv := by
    rintro ⟨p, q⟩
    have hb : 0 < b := Nat.pos_of_ne_zero fun h => by
      have := q.isLt; simp [h] at this
    refine Prod.ext (Fin.ext ?_) (Fin.ext ?_)
    · show (p.val * b + q.val) / b = p.val
      rw [Nat.mul_comm, Nat.mul_add_div hb, Nat.div_eq_of_lt q.isLt, Nat.add_zero]
    · show (p.val * b + q.val) % b = q.val
      rw [Nat.mul_comm, Nat.mul_add_mod, Nat.mod_eq_of_lt q.isLt]
  right_inv := by
    intro k
    refine Fin.ext ?_
    show k.val / b * b + k.val % b = k.val
    rw [Nat.mul_comm]; exact Nat.div_add_mod _ _

/-- The whole sum is the sum of the blocks' sums. -/
theorem sum_blocks (n b : ℕ) (f : Fin (n * b) → M) :
    ∑ k : Fin (n * b), f k = ∑ p : Fin n, ∑ q : Fin b, f (pos p q) := by
  rw [← Fintype.sum_prod_type (f := fun x : Fin n × Fin b => f (pos x.1 x.2))]
  exact (Equiv.sum_comp (posEquiv n b) f).symm

/-- The same with the blocks counted by a range of naturals: `g p` is block `p`'s sum wherever `p < n`. -/
theorem sum_blocks_range (n b : ℕ) (f : Fin (n * b) → M) (g : ℕ → M)
    (hg : ∀ p : Fin n, g p.val = ∑ q : Fin b, f (pos p q)) :
    ∑ k : Fin (n * b), f k = ∑ p ∈ Finset.range n, g p := by
  rw [sum_blocks, Finset.sum_range]
  exact Finset.sum_congr rfl fun p _ => (hg p).symm

end BlockSum
-- ==== Proof.KernelValue.lean ====
/-
  The kernel's result at an entry `(p, q)`, on the extended reals.  The output tile holding `(p, q)` is filled
  over a run of 20 consecutive grid points: the first resets it to 0 and adds its product, the next 18 add
  theirs, the last adds its product and then applies tanh(· + bias).  Point `s` of the run multiplies columns
  `1024·s … 1024·s + 1023` of row `p` of the x array with the same rows of column `q` of the weight array, so
  the twenty partial inner products are the consecutive blocks of ONE inner product over all 20480 inner
  positions (sums of extended reals regroup freely).
-/
import proofs.«149271_j84181359001849_2_alg».proof.Proof.Gen.KernelIdeal.Value
import proofs.«149271_j84181359001849_2_alg».proof.Proof.Payloads
import proofs.«149271_j84181359001849_2_alg».proof.Proof.Blocks
import proofs.«149271_j84181359001849_2_alg».proof.Proof.LibBlockSum

noncomputable section

namespace Cert.KernelIdeal.Result

open Cert.KernelIdeal Cert.KernelIdeal.Gen Cert.KernelIdeal.Value Cert.KernelIdeal.Tile Cert.KernelIdeal.Tiles
open Idealize.ShloMosaic Idealize.ShloMosaic.TcCoe Idealize.SL.Sem Idealize.ShloMosaic.ValueIdx

variable (m : (ℓ : Loc nD τ sig) → Buf (Elt Ideal) ℓ)

/-- Row `y 0` of a 1024 × 1024 tile times column `y 1` of another. -/
def rowByColumn (a b : Vec Ideal S1024x1024 .bf16) (y : S1024x1024.Idx) : EReal :=
  ∑ kk : Fin 1024, a (ix2 (y 0) kk) * b (ix2 kk (y 1))

/-- What grid point `n` adds to entry `y` of its output tile: row `y 0` of its x tile times column `y 1` of its
    weight tile (0 past the grid, never used). -/
def addend (c : Dev nD) (n : ℕ) (y : S1024x1024.Idx) : EReal :=
  if h : n < cfg0.N then rowByColumn (iblk m c 0 ⟨n, h⟩) (iblk m c 1 ⟨n, h⟩) y else 0

/-- The step at the last point of a run: accumulate, then close. -/
theorem step_last (c : Dev nD) (n : ℕ) (h : n < cfg0.N) (acc : Vec Ideal S1024x1024 .f32) (hn : n % 20 = 19) :
    step3 m c n h acc = k0_pay3 (iblk m c 2 ⟨n, h⟩) (k0_pay2 acc (iblk m c 0 ⟨n, h⟩) (iblk m c 1 ⟨n, h⟩)) := by
  unfold step3
  rw [if_neg (by omega), if_pos (by omega)]

/-- The step at a middle point of a run: accumulate. -/
theorem step_mid (c : Dev nD) (n : ℕ) (h : n < cfg0.N) (acc : Vec Ideal S1024x1024 .f32) (h0 : ¬n % 20 = 0)
    (h19 : ¬n % 20 = 19) : step3 m c n h acc = k0_pay2 acc (iblk m c 0 ⟨n, h⟩) (iblk m c 1 ⟨n, h⟩) := by
  unfold step3
  rw [if_pos ⟨h0, h19⟩]

/-- The reset at the first point of a run leaves 0 plus that point's product. -/
theorem reset_entry (c : Dev nD) (n : ℕ) (h : n < cfg0.N) (y : S1024x1024.Idx) :
    reset3 m c n h y = 0 + addend m c n y := by
  obtain ⟨a, b, rfl⟩ : ∃ (a b : Fin 1024), y = ix2 a b := ⟨y 0, y 1, eq_ix2 y⟩
  unfold reset3
  rw [accumulate_apply, reset_apply]
  unfold addend
  rw [dif_pos h]
  rfl

/-- A middle point adds its product to what the point before left. -/
theorem mid_entry (c : Dev nD) (n : ℕ) (h : n < cfg0.N) (acc : Vec Ideal S1024x1024 .f32) (y : S1024x1024.Idx)
    (h0 : ¬n % 20 = 0) (h19 : ¬n % 20 = 19) : step3 m c n h acc y = acc y + addend m c n y := by
  obtain ⟨a, b, rfl⟩ : ∃ (a b : Fin 1024), y = ix2 a b := ⟨y 0, y 1, eq_ix2 y⟩
  rw [step_mid m c n h acc h0 h19, accumulate_apply]
  unfold addend
  rw [dif_pos h]
  rfl

/-- Point `s` of the run for tile `(P, Q)` adds, at `(p, q)`, block `s` of the inner product. -/
theorem addend_eq (c : Dev nD) (p : Fin 2048) (q : Fin 4096) (r s : ℕ) (hr : r = 4 * (p.val / 1024) + q.val / 1024)
    (hs : s < 20) :
    addend m c (20 * r + s) (ix2 (⟨p.val % 1024, Nat.mod_lt _ (by decide)⟩ : Fin 1024) (⟨q.val % 1024, Nat.mod_lt _ (by decide)⟩ : Fin 1024))
      = ∑ kk : Fin 1024, xArr m c (ix2 p (BlockSum.pos (⟨s, hs⟩ : Fin 20) kk))
          * wArr m c (ix2 (BlockSum.pos (⟨s, hs⟩ : Fin 20) kk) q) := by
  have hp := p.isLt
  have hq := q.isLt
  have hN : 20 * r + s < cfg0.N := by rw [show cfg0.N = 160 from N_0]; omega
  unfold addend
  rw [dif_pos hN]
  unfold rowByColumn
  refine Finset.sum_congr rfl fun kk _ => ?_
  have hk := kk.isLt
  rw [x_tile m c ⟨20 * r + s, hN⟩ _ kk (ix2 p (BlockSum.pos (⟨s, hs⟩ : Fin 20) kk))
      (by show p.val = 1024 * ((20 * r + s) / 80) + p.val % 1024; omega)
      (by show s * 1024 + kk.val = 1024 * ((20 * r + s) % 20) + kk.val; omega),
    w_tile m c ⟨20 * r + s, hN⟩ kk _ (ix2 (BlockSum.pos (⟨s, hs⟩ : Fin 20) kk) q)
      (by show s * 1024 + kk.val = 1024 * ((20 * r + s) % 20) + kk.val; omega)
      (by show q.val = 1024 * ((20 * r + s) / 20 % 4) + q.val % 1024; omega)]

/-- THE KERNEL'S RESULT at `(p, q)`: tanh of the inner product over all 20480 inner positions of row `p` of the
    x array with column `q` of the weight array, plus the bias row's entry `q`. -/
theorem result_apply (c : Dev nD) (p : Fin 2048) (q : Fin 4096) :
    G3 m c (ix2 p q)
      = Ideal.tanh ((∑ k : Fin 20480, xArr m c (ix2 p k) * wArr m c (ix2 k q))
          + bArr m c (ix2 (0 : Fin 1) q)) := by
  have hp := p.isLt
  have hq := q.isLt
  have hr : run3Of (ix2 p q) = 4 * (p.val / 1024) + q.val / 1024 := by
    show 4 * (p.val / 1024 - 0) + 1 * (q.val / 1024 - 0) = _
    omega
  have hloc : loc3Of (ix2 p q)
      = ix2 (⟨p.val % 1024, Nat.mod_lt _ (by decide)⟩ : Fin 1024) (⟨q.val % 1024, Nat.mod_lt _ (by decide)⟩ : Fin 1024) :=
    funext fun a => match a with | ⟨0, _⟩ => rfl | ⟨1, _⟩ => rfl
  have hlt : 20 * run3Of (ix2 p q) + 19 < cfg0.N := by rw [hr, show cfg0.N = 160 from N_0]; omega
  unfold G3
  rw [dif_pos hlt, hloc]
  generalize run3Of (ix2 p q) = r at hr hlt
  have hN19 : 20 * r + (18 + 1) < cfg0.N := hlt
  rw [Pipeline.accAt_succ, step_last m c _ hN19 _ (by omega), close_apply, accumulate_apply,
    Pipeline.accAt_add_apply (reset3 m c) (step3 m c) (fun _ => (0 : EReal)) (addend m c) (20 * r) 18
      (fun h i => reset_entry m c _ h i)
      (fun n h acc i h1 h2 => mid_entry m c n h acc i (by omega) (by omega)) 18 le_rfl]
  refine congrArg Ideal.tanh (congrArg₂ (· + ·) ?_ ?_)
  · have hlast : rowByColumn (iblk m c 0 ⟨20 * r + (18 + 1), hN19⟩) (iblk m c 1 ⟨20 * r + (18 + 1), hN19⟩)
          (ix2 (⟨p.val % 1024, Nat.mod_lt _ (by decide)⟩ : Fin 1024) (⟨q.val % 1024, Nat.mod_lt _ (by decide)⟩ : Fin 1024))
        = addend m c (20 * r + 19) (ix2 (⟨p.val % 1024, Nat.mod_lt _ (by decide)⟩ : Fin 1024) (⟨q.val % 1024, Nat.mod_lt _ (by decide)⟩ : Fin 1024)) := by
      unfold addend
      rw [dif_pos hN19]
    change (0 + _) + rowByColumn (iblk m c 0 ⟨20 * r + (18 + 1), hN19⟩) (iblk m c 1 ⟨20 * r + (18 + 1), hN19⟩)
          (ix2 (⟨p.val % 1024, Nat.mod_lt _ (by decide)⟩ : Fin 1024) (⟨q.val % 1024, Nat.mod_lt _ (by decide)⟩ : Fin 1024)) = _
    rw [hlast, zero_add, ← Finset.sum_range_succ (fun s => addend m c (20 * r + s) _) 19]
    refine (BlockSum.sum_blocks_range 20 1024
      (fun k : Fin (20 * 1024) => xArr m c (ix2 p k) * wArr m c (ix2 k q))
      (fun s => addend m c (20 * r + s) (ix2 (⟨p.val % 1024, Nat.mod_lt _ (by decide)⟩ : Fin 1024) (⟨q.val % 1024, Nat.mod_lt _ (by decide)⟩ : Fin 1024)))
      (fun s => addend_eq m c p q r s.val hr s.isLt)).symm
  · exact b_tile m c ⟨20 * r + (18 + 1), hN19⟩ _ (ix2 (0 : Fin 1) q)
      (by show q.val = 1024 * ((20 * r + (18 + 1)) / 20 % 4) + q.val % 1024; omega)

end Cert.KernelIdeal.Result

end
-- ==== Proof.Reference.lean ====
/-
  The reference's result read at an entry `(p, q)` on the extended reals: tanh of the inner product of row
  `p` of x with column `q` of the scattered 20000 × 4096 weight matrix, plus entry `q` of the bias; and the
  scattered matrix as the scatter-add of the value vector into the zero matrix at the wrapped index pairs.
-/
import proofs.«149271_j84181359001849_2_alg».proof.Proof.Gen.ReferenceIdeal.Read
import proofs.«149271_j84181359001849_2_alg».proof.Proof.LibIndexPairs

noncomputable section

namespace Cert.ReferenceIdeal.Entrywise

open Cert.ReferenceIdeal Cert.ReferenceIdeal.Gen Cert.ReferenceIdeal.Read Idealize.ShloMosaic
open Idealize.ShloMosaic.ValueIdx Idealize.ShloMosaic.IndexPairs

/-- The reference's weight matrix: the scatter-add into the 20000 × 4096 zero matrix at the wrapped pairs. -/
theorem weights_eq (x1 : FVec Ideal S2000000 .f32) (x3 : IVec S2000000x2 32) :
    val_main_v18 (F := Ideal) x1 x3
      = Host.scatterAdd scatter_S20000x4096_S2000000x2_S2000000_n_01_01_1
          (broadcastInDim S20000x4096 ![] bcast_S_S20000x4096 (constant (F := Ideal) S_ .f32 0x00000000#32))
          (pairs 2000000 slices_S2000000x2_S2000000x1_0_0 slices_S2000000x2_S2000000x1_0_1 shapeCasts_S2000000x1_S2000000
            bcast_S_S2000000 bcast_S2000000_S2000000x1_0 concatenates_S2000000x1_S2000000x1_S2000000x2_d1 20000#32 4096#32 x3)
          x1 := rfl

/-- The reference's result at `(p, q)`. -/
theorem result_apply (x0 : FVec Ideal S2048x20000 .f32) (x1 : FVec Ideal S2000000 .f32) (x2 : FVec Ideal S4096 .f32)
    (x3 : IVec S2000000x2 32) (p : Fin 2048) (q : Fin 4096) :
    val_main_v23 (F := Ideal) x0 x1 x2 x3 (ix2 p q)
      = Ideal.tanh ((∑ k : Fin 20000, x0 (ix2 p k) * val_main_v18 (F := Ideal) x1 x3 (ix2 k q)) + x2 (ix1 q)) := by
  have el : ∀ k : Fin 20000, lidx_main_v19 (ix2 p q) k = ix2 p k := fun k =>
    funext fun a => Fin.ext (by match a with | ⟨0, _⟩ => rfl | ⟨1, _⟩ => rfl)
  have er : ∀ k : Fin 20000, ridx_main_v19 (ix2 p q) k = ix2 k q := fun k =>
    funext fun a => Fin.ext (by match a with | ⟨0, _⟩ => rfl | ⟨1, _⟩ => rfl)
  have eb : idx_main_v20 (idx_main_v21 (ix2 p q)) = ix1 q :=
    funext fun a => Fin.ext (by match a with | ⟨0, _⟩ => rfl)
  rw [val_main_v23_apply, val_main_v22_apply, val_main_v19_apply, val_main_v21_apply, val_main_v20_apply]
  simp only [el, er, eb, Ideal.hostUnary_tanh_def, Ideal.addf_def]

end Cert.ReferenceIdeal.Entrywise

end
-- ==== Proof.LibPairScatter.lean ====
/-
  A scatter-add of scalar updates into a matrix, each update placed by a two-component index vector
  (row, column): update `j` lands at `(idx (j, 0), idx (j, 1))`, both read signed, and is dropped when that
  is outside the matrix.  Two such scatters into zero matrices of the same width but different heights,
  driven by the same indices and updates, agree on every row both matrices have.
-/
import Idealize.ShloMosaic.PureOps.Ideal
import Idealize.ShloMosaic.Lib.ValueIdx

noncomputable section

namespace Idealize.ShloMosaic.PairScatter

open Idealize.ShloMosaic Idealize.ShloMosaic.ValueIdx

variable {A B n w : ℕ}

/-- The dimension numbers of a scatter of `n` scalars into an `A × B` matrix by `n` index pairs. -/
abbrev dims (A B n : ℕ) (wf : ScatterDims.WF ⟨2, ![A, B]⟩ ⟨2, ![n, 2]⟩ ⟨1, ![n]⟩ [] [0, 1] [0, 1] 1) :
    ScatterDims ⟨2, ![A, B]⟩ ⟨2, ![n, 2]⟩ ⟨1, ![n]⟩ :=
  ⟨[], [0, 1], [0, 1], 1, wf⟩

variable (wf : ScatterDims.WF ⟨2, ![A, B]⟩ ⟨2, ![n, 2]⟩ ⟨1, ![n]⟩ [] [0, 1] [0, 1] 1)

theorem siIdx_zero (j : (⟨1, ![n]⟩ : Shape).Idx) :
    (dims A B n wf).siIdx j ⟨0, Nat.zero_lt_two⟩ = ix2 (j 0) (0 : Fin 2) := by
  funext b
  match b with
  | ⟨0, _⟩ => rfl
  | ⟨1, _⟩ => rfl

theorem siIdx_one (j : (⟨1, ![n]⟩ : Shape).Idx) :
    (dims A B n wf).siIdx j ⟨1, Nat.one_lt_two⟩ = ix2 (j 0) (1 : Fin 2) := by
  funext b
  match b with
  | ⟨0, _⟩ => rfl
  | ⟨1, _⟩ => rfl

/-- The start of update `j`'s window on the row axis is its index pair's first component, read signed. -/
theorem start_zero (j : (⟨1, ![n]⟩ : Shape).Idx) (idx : IVec ⟨2, ![n, 2]⟩ w) :
    (dims A B n wf).start j idx 0 = (idx (ix2 (j 0) (0 : Fin 2))).toInt := by
  unfold ScatterDims.start
  rw [dif_pos (show (0 : Fin 2) ∈ [(0 : Fin 2), 1] by decide)]
  exact congrArg (fun k => (idx k).toInt) (siIdx_zero wf j)

/-- … and on the column axis its second component. -/
theorem start_one (j : (⟨1, ![n]⟩ : Shape).Idx) (idx : IVec ⟨2, ![n, 2]⟩ w) :
    (dims A B n wf).start j idx 1 = (idx (ix2 (j 0) (1 : Fin 2))).toInt := by
  unfold ScatterDims.start
  rw [dif_pos (show (1 : Fin 2) ∈ [(0 : Fin 2), 1] by decide)]
  exact congrArg (fun k => (idx k).toInt) (siIdx_one wf j)

/-- A scalar update has no window coordinate. -/
theorem window_eq (j : (⟨1, ![n]⟩ : Shape).Idx) (a : Fin 2) : (dims A B n wf).window j a = 0 := by
  have hk : (dims A B n wf).sKept = [] := by
    show (List.finRange 2).filter (fun x : Fin 2 => x ∉ [(0 : Fin 2), 1]) = []
    decide
  unfold ScatterDims.window
  rw [dif_neg (by rw [hk]; exact List.not_mem_nil)]

/-- Update `j` lands at `i` exactly when its index pair, read signed, is `i`'s coordinates. -/
theorem resultIdx?_eq_some_iff (j : (⟨1, ![n]⟩ : Shape).Idx) (idx : IVec ⟨2, ![n, 2]⟩ w) (i : (⟨2, ![A, B]⟩ : Shape).Idx) :
    (dims A B n wf).resultIdx? j idx = some i ↔
      (idx (ix2 (j 0) (0 : Fin 2))).toInt = ((i 0).val : Int) ∧ (idx (ix2 (j 0) (1 : Fin 2))).toInt = ((i 1).val : Int) := by
  have h0 := start_zero wf j idx
  have h1 := start_one wf j idx
  have w0 := window_eq wf j 0
  have w1 := window_eq wf j 1
  have hi0 : (i 0).val < A := (i 0).isLt
  have hi1 : (i 1).val < B := (i 1).isLt
  unfold ScatterDims.resultIdx?
  constructor
  · intro h
    split at h
    · next hin =>
      have e := Option.some.inj h
      have e0 : ((dims A B n wf).start j idx 0 + ((dims A B n wf).window j 0 : Int)).toNat = (i 0).val :=
        congrArg (fun k : (⟨2, ![A, B]⟩ : Shape).Idx => (k 0).val) e
      have e1 : ((dims A B n wf).start j idx 1 + ((dims A B n wf).window j 1 : Int)).toNat = (i 1).val :=
        congrArg (fun k : (⟨2, ![A, B]⟩ : Shape).Idx => (k 1).val) e
      have b0 := hin 0
      have b1 := hin 1
      rw [w0, h0] at e0 b0
      rw [w1, h1] at e1 b1
      omega
    · exact absurd h (by simp)
  · rintro ⟨e0, e1⟩
    have hin : ∀ a, 0 ≤ (dims A B n wf).start j idx a + ((dims A B n wf).window j a : Int) ∧
        (dims A B n wf).start j idx a + ((dims A B n wf).window j a : Int) < ((⟨2, ![A, B]⟩ : Shape).size a : Int) := by
      refine Fin.forall_fin_two.2 ⟨?_, ?_⟩
      · rw [w0, h0, e0]; show _ ∧ _ < (A : Int); omega
      · rw [w1, h1, e1]; show _ ∧ _ < (B : Int); omega
    rw [dif_pos hin]
    have key : ∀ a : Fin 2, ((dims A B n wf).start j idx a + ((dims A B n wf).window j a : Int)).toNat = (i a).val := by
      refine Fin.forall_fin_two.2 ⟨?_, ?_⟩
      · rw [w0, h0, e0]; omega
      · rw [w1, h1, e1]; omega
    exact congrArg some (funext fun a => Fin.ext (key a))

/-- Two scatter-adds of the same updates by the same index pairs, into matrices of heights `A₁` and `A₂`
    and the same width, agree at a row both have when the operands agree there: an update lands at that
    entry of the one exactly when it lands at that entry of the other. -/
theorem hostScatterAdd_common_row {A₁ A₂ : ℕ}
    (wf₁ : ScatterDims.WF ⟨2, ![A₁, B]⟩ ⟨2, ![n, 2]⟩ ⟨1, ![n]⟩ [] [0, 1] [0, 1] 1)
    (wf₂ : ScatterDims.WF ⟨2, ![A₂, B]⟩ ⟨2, ![n, 2]⟩ ⟨1, ![n]⟩ [] [0, 1] [0, 1] 1)
    (x₁ : (⟨2, ![A₁, B]⟩ : Shape).Idx → EReal) (x₂ : (⟨2, ![A₂, B]⟩ : Shape).Idx → EReal)
    (idx : IVec ⟨2, ![n, 2]⟩ w) (upd : (⟨1, ![n]⟩ : Shape).Idx → EReal)
    (k₁ : Fin A₁) (k₂ : Fin A₂) (hk : k₁.val = k₂.val) (q : Fin B) (hx : x₁ (ix2 k₁ q) = x₂ (ix2 k₂ q)) :
    Ideal.hostScatterAdd (dims A₁ B n wf₁) x₁ idx upd (ix2 k₁ q)
      = Ideal.hostScatterAdd (dims A₂ B n wf₂) x₂ idx upd (ix2 k₂ q) := by
  unfold Ideal.hostScatterAdd
  rw [hx]
  refine congrArg (x₂ (ix2 k₂ q) + ·) (Finset.sum_congr (Finset.filter_congr fun j _ => ?_) fun _ _ => rfl)
  rw [resultIdx?_eq_some_iff wf₁, resultIdx?_eq_some_iff wf₂]
  show _ = ((k₁.val : Int)) ∧ _ = ((q.val : Int)) ↔ _ = ((k₂.val : Int)) ∧ _ = ((q.val : Int))
  rw [hk]

/-- The same for the host's scatter-add at the extended reals, for any two dimension records that are the pair
    scatter's (whatever name a program gives them). -/
theorem host_scatterAdd_common_row {A₁ A₂ : ℕ}
    (d₁ : ScatterDims ⟨2, ![A₁, B]⟩ ⟨2, ![n, 2]⟩ ⟨1, ![n]⟩) (d₂ : ScatterDims ⟨2, ![A₂, B]⟩ ⟨2, ![n, 2]⟩ ⟨1, ![n]⟩)
    (wf₁ : ScatterDims.WF ⟨2, ![A₁, B]⟩ ⟨2, ![n, 2]⟩ ⟨1, ![n]⟩ [] [0, 1] [0, 1] 1)
    (wf₂ : ScatterDims.WF ⟨2, ![A₂, B]⟩ ⟨2, ![n, 2]⟩ ⟨1, ![n]⟩ [] [0, 1] [0, 1] 1)
    (h₁ : d₁ = dims A₁ B n wf₁) (h₂ : d₂ = dims A₂ B n wf₂) {φ : FTy}
    (x₁ : FVec Ideal ⟨2, ![A₁, B]⟩ φ) (x₂ : FVec Ideal ⟨2, ![A₂, B]⟩ φ)
    (idx : IVec ⟨2, ![n, 2]⟩ w) (upd : FVec Ideal ⟨1, ![n]⟩ φ)
    (k₁ : Fin A₁) (k₂ : Fin A₂) (hk : k₁.val = k₂.val) (q : Fin B) (hx : x₁ (ix2 k₁ q) = x₂ (ix2 k₂ q)) :
    Host.scatterAdd d₁ x₁ idx upd (ix2 k₁ q) = Host.scatterAdd d₂ x₂ idx upd (ix2 k₂ q) := by
  subst h₁ h₂
  exact hostScatterAdd_common_row wf₁ wf₂ x₁ x₂ idx upd k₁ k₂ hk q hx

end Idealize.ShloMosaic.PairScatter

end
-- ==== Proof.Bridge.lean ====
/-
  The kernel's result IS the reference's, entry by entry, on the extended reals, when every row index is
  non-negative.  Both are tanh of an inner product plus the bias.  The kernel's inner product runs over 20480
  positions: the last 480 multiply a zero of the padded x and contribute 0 whatever the weight there (0 · w = 0
  on the extended reals, infinities included), and on the first 20000 the x entries are the argument's and the
  kernel's 20480-row scattered matrix agrees with the reference's 20000-row one, because with non-negative row
  indices both programs feed their scatter the same index pairs, and an update lands at an entry of a common
  row in the one matrix exactly when it does in the other.
-/
import proofs.«149271_j84181359001849_2_alg».proof.Proof.Entry
import proofs.«149271_j84181359001849_2_alg».proof.Proof.KernelValue
import proofs.«149271_j84181359001849_2_alg».proof.Proof.Reference
import proofs.«149271_j84181359001849_2_alg».proof.Proof.LibPairScatter

noncomputable section

namespace Cert.Bridge

open Cert.KernelIdeal Cert.KernelIdeal.Gen Idealize.ShloMosaic Idealize.ShloMosaic.TcCoe Idealize.SL.Sem
open Idealize.ShloMosaic.ValueIdx Idealize.ShloMosaic.IndexPairs Idealize.ShloMosaic.PairScatter
open Cert.KernelIdeal.Tiles Cert.KernelIdeal.Entry

variable (m : (ℓ : Loc nD τ sig) → Buf (Elt Ideal) ℓ)

theorem xArr_eq (c : Dev nD) : xArr m c = V m c main_v21 := rfl
theorem wArr_eq (c : Dev nD) : wArr m c = V m c main_v19 := rfl
theorem bArr_eq (c : Dev nD) : bArr m c = V m c main_v22 := rfl

/-- The x array at a column the argument has is the argument there. -/
theorem x_inside (c : Dev nD) (p : Fin 2048) (k : Fin 20480) (hk : k.val < 20000) :
    xArr m c (ix2 p k) = m ((c : Thread nD τ).loc main_arg0) (ix2 p (⟨k.val, hk⟩ : Fin 20000)) := by
  rw [xArr_eq, x_array]
  exact pad_apply_of_inside ![0, 0] ![0, 480] ![0, 0] _ _ _ _ (ix2 p k) (ix2 p (⟨k.val, hk⟩ : Fin 20000)) (fun a => match a with
    | ⟨0, _⟩ => by show p.val = 0 + p.val * (0 + 1); omega
    | ⟨1, _⟩ => by show k.val = 0 + k.val * (0 + 1); omega)

/-- The x array at an appended column is 0. -/
theorem x_outside (c : Dev nD) (p : Fin 2048) (k : Fin 20480) (hk : 20000 ≤ k.val) : xArr m c (ix2 p k) = 0 := by
  rw [xArr_eq, x_array]
  refine (pad_apply_of_not_inside (s := S2048x20000) (t := S2048x20480) ![0, 0] ![0, 480] ![0, 0] _ _
    Gen.pads_S2048x20000_S2048x20480_000_04800 Gen.h_S_ (ix2 p k) (1 : Fin 2) (by
    show ¬(0 ≤ k.val ∧ (k.val - 0) % (0 + 1) = 0 ∧ (k.val - 0) / (0 + 1) < 20000)
    omega)).trans ?_
  show (((0#32 : BitVec 32).toInt : ℝ) : EReal) = 0
  rw [BitVec.toInt_zero, Int.cast_zero, EReal.coe_zero]

/-- The bias row's entry `q` is the bias vector's. -/
theorem bias_entry (c : Dev nD) (q : Fin 4096) :
    bArr m c (ix2 (0 : Fin 1) q) = m ((c : Thread nD τ).loc main_arg2) (ix1 q) := by
  rw [bArr_eq, bias_array]
  exact shapeCast_a_1a_apply _ _ 0 q

/-- A change of float format is the identity on the extended reals, entry by entry. -/
theorem truncf_apply {s : Shape} {φ ψ : FTy} (x : FVec Ideal s φ) (h : ψ.bits < φ.bits) (i : s.Idx) :
    truncf (F := Ideal) ψ x h i = x i := rfl

/-- On a row both matrices have, the kernel's 20480-row scattered matrix is the reference's 20000-row one. -/
theorem weight_entry (c : Dev nD) (hrows : ∀ j : Fin 2000000, 0 ≤ (m ((c : Thread nD τ).loc main_arg3) (ix2 j (0 : Fin 2))).toInt)
    (k : Fin 20480) (hk : k.val < 20000) (q : Fin 4096) :
    wArr m c (ix2 k q)
      = Cert.ReferenceIdeal.Read.val_main_v18 (F := Ideal) (m ((c : Thread nD τ).loc main_arg1))
          (m ((c : Thread nD τ).loc main_arg3)) (ix2 (⟨k.val, hk⟩ : Fin 20000) q) := by
  rw [wArr_eq, weight_array, Cert.ReferenceIdeal.Entrywise.weights_eq,
    pairs_eq_of_rows_nonneg 2000000 _ _ _ _ _ _ 20480#32 20000#32 4096#32 _ hrows, truncf_apply]
  refine host_scatterAdd_common_row _ _ Cert.KernelIdeal.Gen.scatter_S20480x4096_S2000000x2_S2000000_n_01_01_1_wf
    Cert.ReferenceIdeal.Gen.scatter_S20000x4096_S2000000x2_S2000000_n_01_01_1_wf rfl rfl _ _ _ _ k (⟨k.val, hk⟩ : Fin 20000) rfl q ?_
  exact (broadcastInDim_apply _ Cert.KernelIdeal.Gen.bcast_S_S20480x4096 _ _ ix0 (fun a => a.elim0)).trans
    (broadcastInDim_apply _ Cert.ReferenceIdeal.Gen.bcast_S_S20000x4096 _ _ ix0 (fun a => a.elim0)).symm

/-- THE TWO RESULTS ARE ONE FUNCTION of the arguments. -/
theorem result_eq (c : Dev nD) (hrows : ∀ j : Fin 2000000, 0 ≤ (m ((c : Thread nD τ).loc main_arg3) (ix2 j (0 : Fin 2))).toInt) :
    Cert.KernelIdeal.Value.G3 m c
      = Cert.ReferenceIdeal.Read.val_main_v23 (F := Ideal) (m ((c : Thread nD τ).loc main_arg0))
          (m ((c : Thread nD τ).loc main_arg1)) (m ((c : Thread nD τ).loc main_arg2)) (m ((c : Thread nD τ).loc main_arg3)) := by
  funext i
  obtain ⟨p, q, rfl⟩ : ∃ (p : Fin 2048) (q : Fin 4096), i = ix2 p q := ⟨i 0, i 1, eq_ix2 i⟩
  rw [Cert.KernelIdeal.Result.result_apply m c p q, Cert.ReferenceIdeal.Entrywise.result_apply]
  refine congrArg Ideal.tanh (congrArg₂ (· + ·) ?_ (bias_entry m c q))
  refine (Fin.sum_univ_add (fun k : Fin (20000 + 480) => xArr m c (ix2 p k) * wArr m c (ix2 k q))).trans ?_
  rw [Finset.sum_eq_zero (s := Finset.univ) (f := fun k : Fin 480 => xArr m c (ix2 p (Fin.natAdd 20000 k)) * wArr m c (ix2 (Fin.natAdd 20000 k) q))
      (fun k _ => by rw [x_outside m c p (Fin.natAdd 20000 k) (Nat.le_add_right 20000 k.val), zero_mul]), add_zero]
  exact Finset.sum_congr rfl fun k _ =>
    congrArg₂ (· * ·) (x_inside m c p (Fin.castAdd 480 k) k.isLt) (weight_entry m c hrows (Fin.castAdd 480 k) k.isLt q)

end Cert.Bridge

end
-- ==== Proof.Domain.lean ====
/-
  What the precondition says of the index pairs: its last conjunct is the conjunction over all pairs of "row index ≥ 0", so when
  the precondition's word is 1 every pair's row index, read signed, is non-negative.  (The finiteness
  conjuncts are not used: the two programs agree on the extended reals without them.)
-/
import proofs.«149271_j84181359001849_2_alg».proof.Pre_finite_inputs
import proofs.«149271_j84181359001849_2_alg».proof.Proof.LibIndexPairs
import Idealize.ShloMosaic.Lib.ReduceAll

noncomputable section

namespace Cert.Pre_finite_inputs.Domain

open Cert.Pre_finite_inputs Idealize.ShloMosaic Idealize.ShloMosaic.ValueIdx Idealize.ShloMosaic.IndexPairs
open Facts

instance : Subsingleton S_.Idx := ⟨fun a b => funext fun d => d.elim0⟩

variable {F : FTy → Type} [FloatOps F] [Facts]

/-- Under the precondition every row index is non-negative. -/
theorem rows_nonneg (a0 : FVec F S2048x20000 .f32) (a1 : FVec F S2000000 .f32) (a2 : FVec F S4096 .f32)
    (a3 : IVec S2000000x2 32) (h : fn (F := F) a0 a1 a2 a3 = fun _ => 1#1) (j : Fin 2000000) :
    0 ≤ (a3 (ix2 j (0 : Fin 2))).toInt := by
  have h0 : fn (F := F) a0 a1 a2 a3 ix0 = 1#1 := congrFun h ix0
  change IntOp.andi _ (Host.reduce IntOp.andi
    (cmpi .sge (rows 2000000 slices_S2000000x2_S2000000x1_0_0 shapeCasts_S2000000x1_S2000000 a3)
      (broadcastInDim S2000000 ![] bcast_S_S2000000 (constantI S_ 32 0#32)))
    (constantI S_ 1 1#1) reducesTo_S2000000_S_d0 h_S_ ix0) = 1#1 at h0
  have h18 := (IntOp.andi_eq_one.1 h0).2
  have hj := Host.reduce_andi_all _ _ reducesTo_S2000000_S_d0 h_S_ ix0 h18 (ix1 j)
  have hz : broadcastInDim S2000000 ![] bcast_S_S2000000 (constantI S_ 32 0#32) (ix1 j) = 0#32 :=
    broadcastInDim_apply _ bcast_S_S2000000 _ (ix1 j) ix0 (fun a => a.elim0)
  have hc : IntOp.cmpi .sge (rows 2000000 slices_S2000000x2_S2000000x1_0_0 shapeCasts_S2000000x1_S2000000 a3 (ix1 j))
      (broadcastInDim S2000000 ![] bcast_S_S2000000 (constantI S_ 32 0#32) (ix1 j)) = 1#1 := hj
  rw [hz, rows_apply] at hc
  have := IntOp.cmpi_sge.1 hc
  rw [BitVec.toInt_zero] at this
  exact this

end Cert.Pre_finite_inputs.Domain

end
-- ==== Proof.lean ====
/-
  The kernel pads the inner dimension of `x @ trans` from 20000 to 20480 (zero columns in x, extra rows in the
  scattered matrix), multiplies tile by tile over a 2 × 4 × 20 grid, and adds the bias and applies tanh at
  the last inner tile; the reference scatters into a 20000-row matrix, multiplies once, adds the bias and
  applies tanh.  On the extended reals the two results are one function of the arguments as soon as every row
  index of the pairs is non-negative (the added precondition conjunct): then both scatters take the same
  pairs, the matrices agree on their common rows, and the 480 extra inner positions multiply by 0.
  The three frames are the generated runs; `preserves` has no conjunct.
-/
import proofs.«149271_j84181359001849_2_alg».proof.Defs
import proofs.«149271_j84181359001849_2_alg».proof.Proof.Gen.Kernel.Frame
import proofs.«149271_j84181359001849_2_alg».proof.Proof.Gen.KernelIdeal.Value
import proofs.«149271_j84181359001849_2_alg».proof.Proof.Gen.Pre_finite_inputs
import proofs.«149271_j84181359001849_2_alg».proof.Proof.Gen.ReferenceIdeal.Run
import proofs.«149271_j84181359001849_2_alg».proof.Proof.Gen.ReferenceIdeal.Read
import proofs.«149271_j84181359001849_2_alg».proof.Proof.Bridge
import proofs.«149271_j84181359001849_2_alg».proof.Proof.Domain
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both idealized programs end with the reference's function of the (agreeing) arguments in their result:
    the reference by its run, the kernel by its run and the entry-by-entry equation, which uses the
    precondition only for the sign of the row indices. -/
theorem algebraic_KernelIdeal_ReferenceIdeal : algebraic_KernelIdeal_ReferenceIdeal := by
  intro m ρ m' ρ' hpre hagree
  refine ⟨fun c => Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c =>
      ⟨(h c).1.trans (Cert.Bridge.result_eq m c (Cert.Pre_finite_inputs.Domain.rows_nonneg _ _ _ _ (hpre c))), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, (hagree c).1, (hagree c).2.1, (hagree c).2.2.1, (hagree c).2.2.2]
    exact Cert.ReferenceIdeal.Read.val_main_v23_eq _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
